-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S257x1024 : Shape := ⟨2, ![257, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S257x1024 : S_.BroadcastsInDim S257x1024 (![] : Fin 0 → Fin S257x1024.rank)
  reducesTo_S257x1024_S_d0_1 : S257x1024.ReducesTo [0, 1] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S512 .f32) (main_arg12 : FVec F S512 .f32) (main_arg13 : FVec F S512x1 .f32) (main_arg14 : FVec F S1 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x1 .f32 := Host.absf main_arg13
  let main_cst_24 : FVec F S_ .f32 := constant S_ .f32 0x7F800000#32
  let main_v65 : FVec F S512x1 .f32 := broadcastInDim S512x1 ![] bcast_S_S512x1 main_cst_24
  let main_v66 : IVec S512x1 1 := cmpf .olt main_v64 main_v65
  let main_c_25 : IVec S_ 1 := constantI S_ 1 1#1
  let main_v67 : IVec S_ 1 := (fun x v => Host.reduce IntOp.andi x v reducesTo_S512x1_S_d0_1 h_S_) main_v66 main_c_25
  fn_part4 (F := F) main_arg14 main_v63 main_v67

def fn_part2 {F : FTy → Type} [FloatOps F] (main_arg7 : FVec F S1024x512 .f32) (main_arg8 : FVec F S512 .f32) (main_arg9 : FVec F S512 .f32) (main_arg10 : FVec F S512 .f32) (main_arg11 : FVec F S512 .f32) (main_arg12 : FVec F S512 .f32) (main_arg13 : FVec F S512x1 .f32) (main_arg14 : FVec F S1 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_v48 main_v49 main_v50

def fn_part1 {F : FTy → Type} [FloatOps F] (main_arg4 : FVec F S1024 .f32) (main_arg5 : FVec F S1024 .f32) (main_arg6 : FVec F S1024 .f32) (main_arg7 : FVec F S1024x512 .f32) (main_arg8 : FVec F S512 .f32) (main_arg9 : FVec F S512 .f32) (main_arg10 : FVec F S512 .f32) (main_arg11 : FVec F S512 .f32) (main_arg12 : FVec F S512 .f32) (main_arg13 : FVec F S512x1 .f32) (main_arg14 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S65536x256 .f32) (main_arg1 : FVec F S257x1024 .f32) (main_arg2 : FVec F S1024 .f32) (main_arg3 : FVec F S1024 .f32) (main_arg4 : FVec F S1024 .f32) (main_arg5 : FVec F S1024 .f32) (main_arg6 : FVec F S1024 .f32) (main_arg7 : FVec F S1024x512 .f32) (main_arg8 : FVec F S512 .f32) (main_arg9 : FVec F S512 .f32) (main_arg10 : FVec F S512 .f32) (main_arg11 : FVec F S512 .f32) (main_arg12 : FVec F S512 .f32) (main_arg13 : FVec F S512x1 .f32) (main_arg14 : FVec F S1 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S257x1024 .f32 := Host.absf main_arg1
  let main_cst_0 : FVec F S_ .f32 := constant S_ .f32 0x7F800000#32
  let main_v5 : FVec F S257x1024 .f32 := broadcastInDim S257x1024 ![] bcast_S_S257x1024 main_cst_0
  let main_v6 : IVec S257x1024 1 := cmpf .olt main_v4 main_v5
  let main_c_1 : IVec S_ 1 := constantI S_ 1 1#1
  let main_v7 : IVec S_ 1 := (fun x v => Host.reduce IntOp.andi x v reducesTo_S257x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S65536x256 : Shape := ⟨2, ![65536, 256]⟩
abbrev S257x1024 : Shape := ⟨2, ![257, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S256x1024 : Shape := ⟨2, ![256, 1024]⟩
abbrev S1x1024 : Shape := ⟨2, ![1, 1024]⟩
abbrev S1x512 : Shape := ⟨2, ![1, 512]⟩
abbrev S1x1 : Shape := ⟨2, ![1, 1]⟩
abbrev S65536x1 : Shape := ⟨2, ![65536, 1]⟩
abbrev S1024x256 : Shape := ⟨2, ![1024, 256]⟩
abbrev S1024x1 : Shape := ⟨2, ![1024, 1]⟩
abbrev S1024x1024 : Shape := ⟨2, ![1024, 1024]⟩

abbrev nBuf : Space → Nat
  | .hbm => 29
  | .vmem => 19
  | .smem => 0
  | _ => 0

abbrev bufTy : (tb : Table) → Fin (tcTables nBuf tb) → BufTy
  | .hbm, ⟨0, _⟩ => ⟨S65536x256, .f32⟩
  | .hbm, ⟨1, _⟩ => ⟨S257x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x1, .f32⟩
  | .hbm, ⟨14, _⟩ => ⟨S1, .f32⟩
  | .hbm, ⟨15, _⟩ => ⟨S256x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x512, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x1, .f32⟩
  | .hbm, ⟨28, _⟩ => ⟨S65536x1, .f32⟩
  | .local _ .vmem, ⟨0, _⟩ => ⟨S1024x256, .f32⟩
  | .local _ .vmem, ⟨1, _⟩ => ⟨S1024x256, .f32⟩
  | .local _ .vmem, ⟨2, _⟩ => ⟨S256x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S512x1, .f32⟩
  | .local _ .vmem, ⟨16, _⟩ => ⟨S1x1, .f32⟩
  | .local _ .vmem, ⟨17, _⟩ => ⟨S1024x1, .f32⟩
  | .local _ .vmem, ⟨18, _⟩ => ⟨S1024x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1024x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  slices_S257x1024_S256x1024_0_0 : S257x1024.Slices ![0, 0] S256x1024
  slices_S257x1024_S1x1024_256_0 : S257x1024.Slices ![256, 0] S1x1024
  shapeCasts_S1024_S1x1024 : S1024.ShapeCasts S1x1024
  shapeCasts_S512_S1x512 : S512.ShapeCasts S1x512
  shapeCasts_S1_S1x1 : S1.ShapeCasts S1x1
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x512_S1024x512_0_0 : ∀ a, (![0, 0] : Fin 2 → Nat) a + S1024x512.size a ≤ S1024x512.size a
  h_S1024x512 : 0 < S1024x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S512x1_S512x1_0_0 : ∀ a, (![0, 0] : Fin 2 → Nat) a + S512x1.size a ≤ S512x1.size a
  h_S512x1 : 0 < S512x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  inb_S1024x1_S1024x1_0_0 : ∀ a, (![0, 0] : Fin 2 → Nat) a + S1024x1.size a ≤ S1024x1.size a
  h_S1024x1 : 0 < S1024x1.numel
  dot_S1024x256_S256x1024_S1024x1024_1_0_0_1_n_n_wf : DotDims.WF S1024x256 S256x1024 S1024x1024 [1] [0] [0] [1] [] []
  dot_S1024x1024_S1024x512_S1024x512_1_0_0_1_n_n_wf : DotDims.WF S1024x1024 S1024x512 S1024x512 [1] [0] [0] [1] [] []
  dot_S1024x512_S512x1_S1024x1_1_0_0_1_n_n_wf : DotDims.WF S1024x512 S512x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x512.size a
  hwx0_8 : ∀ i : grid0.Coords, EltTy.bits .f32 = 32 ∨ (Rect.block (s := S1024x512) S1024x512.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x512.size a
  hwx0_9 : ∀ i : grid0.Coords, EltTy.bits .f32 = 32 ∨ (Rect.block (s := S1x512) S1x512.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x512.size a
  hwx0_10 : ∀ i : grid0.Coords, EltTy.bits .f32 = 32 ∨ (Rect.block (s := S1x512) S1x512.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x512.size a ≤ S1x512.size a
  hwx0_11 : ∀ i : grid0.Coords, EltTy.bits .f32 = 32 ∨ (Rect.block (s := S1x512) S1x512.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x512.size a ≤ S1x512.size a
  hwx0_12 : ∀ i : grid0.Coords, EltTy.bits .f32 = 32 ∨ (Rect.block (s := S1x512) S1x512.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x512.size a
  hwx0_13 : ∀ i : grid0.Coords, EltTy.bits .f32 = 32 ∨ (Rect.block (s := S1x512) S1x512.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S512x1.size a
  hwx0_14 : ∀ i : grid0.Coords, EltTy.bits .f32 = 32 ∨ (Rect.block (s := S512x1) S512x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x1.size a ≤ S65536x1.size a
  hwx0_16 : ∀ i : grid0.Coords, EltTy.bits .f32 = 32 ∨ (Rect.block (s := S65536x1) S1024x1.size (cc0_transform_16 i) (hinb0_16 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1_S1024x1_1_0_0_1_n_n : DotDims S1024x512 S512x1 S1024x1 where
  lhsContracting := [1]
  rhsContracting := [0]
  lhsNonContracting := [0]
  rhsNonContracting := [1]
  lhsBatch := []
  rhsBatch := []
  wf := dot_S1024x512_S512x1_S1024x1_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S1024x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x512.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x512.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x512.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S1x512.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S1x512.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S512x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S1x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v13) S1024x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S65536x256 : Shape := ⟨2, ![65536, 256]⟩
abbrev S257x1024 : Shape := ⟨2, ![257, 1024]⟩
abbrev S1024 : Shape := ⟨1, ![1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S_ : Shape := ⟨0, ![]⟩
abbrev S65536 : Shape := ⟨1, ![65536]⟩
abbrev S65536x1 : Shape := ⟨2, ![65536, 1]⟩
abbrev S65536x257 : Shape := ⟨2, ![65536, 257]⟩
abbrev S65536x1024 : Shape := ⟨2, ![65536, 1024]⟩
abbrev S1x1024 : Shape := ⟨2, ![1, 1024]⟩
abbrev S65536x512 : Shape := ⟨2, ![65536, 512]⟩
abbrev S1x512 : Shape := ⟨2, ![1, 512]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S257x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S512, .f32⟩
  | .hbm, ⟨11, _⟩ => ⟨S512, .f32⟩
  | .hbm, ⟨12, _⟩ => ⟨S512, .f32⟩
  | .hbm, ⟨13, _⟩ => ⟨S512x1, .f32⟩
  | .hbm, ⟨14, _⟩ => ⟨S1, .f32⟩
  | .hbm, ⟨15, _⟩ => ⟨S_, .f32⟩
  | .hbm, ⟨16, _⟩ => ⟨S65536, .f32⟩
  | .hbm, ⟨17, _⟩ => ⟨S65536x1, .f32⟩
  | .hbm, ⟨18, _⟩ => ⟨S_, .f32⟩
  | .hbm, ⟨19, _⟩ => ⟨S65536x1, .f32⟩
  | .hbm, ⟨20, _⟩ => ⟨S65536x1, .f32⟩
  | .hbm, ⟨21, _⟩ => ⟨S_, .f32⟩
  | .hbm, ⟨22, _⟩ => ⟨S65536x1, .f32⟩
  | .hbm, ⟨23, _⟩ => ⟨S65536x1, .i1⟩
  | .hbm, ⟨24, _⟩ => ⟨S_, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S65536x257, .f32⟩
  | .hbm, ⟨31, _⟩ => ⟨S65536x1024, .f32⟩
  | .hbm, ⟨32, _⟩ => ⟨S1x1024, .f32⟩
  | .hbm, ⟨33, _⟩ => ⟨S65536x1024, .f32⟩
  | .hbm, ⟨34, _⟩ => ⟨S65536x1024, .f32⟩
  | .hbm, ⟨35, _⟩ => ⟨S1x1024, .f32⟩
  | .hbm, ⟨36, _⟩ => ⟨S65536x1024, .f32⟩
  | .hbm, ⟨37, _⟩ => ⟨S65536x1024, .f32⟩
  | .hbm, ⟨38, _⟩ => ⟨S1x1024, .f32⟩
  | .hbm, ⟨39, _⟩ => ⟨S65536x1024, .f32⟩
  | .hbm, ⟨40, _⟩ => ⟨S65536x1024, .f32⟩
  | .hbm, ⟨41, _⟩ => ⟨S_, .f32⟩
  | .hbm, ⟨42, _⟩ => ⟨S1024, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S65536x1024, .f32⟩
  | .hbm, ⟨47, _⟩ => ⟨S65536x1024, .f32⟩
  | .hbm, ⟨48, _⟩ => ⟨S1x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S65536x512, .f32⟩
  | .hbm, ⟨55, _⟩ => ⟨S1x512, .f32⟩
  | .hbm, ⟨56, _⟩ => ⟨S65536x512, .f32⟩
  | .hbm, ⟨57, _⟩ => ⟨S65536x512, .f32⟩
  | .hbm, ⟨58, _⟩ => ⟨S1x512, .f32⟩
  | .hbm, ⟨59, _⟩ => ⟨S65536x512, .f32⟩
  | .hbm, ⟨60, _⟩ => ⟨S65536x512, .f32⟩
  | .hbm, ⟨61, _⟩ => ⟨S1x512, .f32⟩
  | .hbm, ⟨62, _⟩ => ⟨S65536x512, .f32⟩
  | .hbm, ⟨63, _⟩ => ⟨S65536x512, .f32⟩
  | .hbm, ⟨64, _⟩ => ⟨S_, .f32⟩
  | .hbm, ⟨65, _⟩ => ⟨S512, .f32⟩
  | .hbm, ⟨66, _⟩ => ⟨S512, .f32⟩
  | .hbm, ⟨67, _⟩ => ⟨S512, .f32⟩
  | .hbm, ⟨68, _⟩ => ⟨S1x512, .f32⟩
  | .hbm, ⟨69, _⟩ => ⟨S65536x512, .f32⟩
  | .hbm, ⟨70, _⟩ => ⟨S65536x512, .f32⟩
  | .hbm, ⟨71, _⟩ => ⟨S1x512, .f32⟩
  | .hbm, ⟨72, _⟩ => ⟨S65536x512, .f32⟩
  | .hbm, ⟨73, _⟩ => ⟨S65536x512, .f32⟩
  | .hbm, ⟨74, _⟩ => ⟨S_, .f32⟩
  | .hbm, ⟨75, _⟩ => ⟨S65536x512, .f32⟩
  | .hbm, ⟨76, _⟩ => ⟨S65536x512, .f32⟩
  | .hbm, ⟨77, _⟩ => ⟨S65536x1, .f32⟩
  | .hbm, ⟨78, _⟩ => ⟨S1x1, .f32⟩
  | .hbm, ⟨79, _⟩ => ⟨S65536x1, .f32⟩
  | .hbm, ⟨80, _⟩ => ⟨S65536x1, .f32⟩
  | .hbm, ⟨81, _⟩ => ⟨S65536x1, .f32⟩
  | .hbm, ⟨82, _⟩ => ⟨S65536x1, .f32⟩
  | .hbm, ⟨83, _⟩ => ⟨S_, .f32⟩
  | .hbm, ⟨84, _⟩ => ⟨S65536x1, .f32⟩
  | .hbm, ⟨85, _⟩ => ⟨S65536x1, .f32⟩
  | .hbm, ⟨86, _⟩ => ⟨S_, .f32⟩
  | .hbm, ⟨87, _⟩ => ⟨S65536x1, .f32⟩
  | .hbm, ⟨88, _⟩ => ⟨S65536x1, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_cst_1 : Ref sig .tc := ⟨.hbm, 21, rfl⟩
abbrev main_v4 : Ref sig .tc := ⟨.hbm, 22, rfl⟩
abbrev main_v5 : Ref sig .tc := ⟨.hbm, 23, rfl⟩
abbrev main_cst_2 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_4 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_cst : Ref sig .tc := ⟨.hbm, 51, rfl⟩
abbrev main_call1_v0 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_call2_cst : Ref sig .tc := ⟨.hbm, 74, rfl⟩
abbrev main_call2_v0 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_6 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  concatenates_S65536x256_S65536x1_S65536x257_d1 : Shape.Concatenates [S65536x256, S65536x1] S65536x257 1
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  bcast_S_S1024 : S_.BroadcastsInDim S1024 (![] : Fin 0 → Fin S1024.rank)
  bcast_S_S65536x1024 : S_.BroadcastsInDim S65536x1024 (![] : Fin 0 → Fin S65536x1024.rank)
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S512 : S_.BroadcastsInDim S512 (![] : Fin 0 → Fin S512.rank)
  bcast_S_S65536x512 : S_.BroadcastsInDim S65536x512 (![] : Fin 0 → Fin S65536x512.rank)
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x257_S257x1024_S65536x1024_1_0_0_1_n_n_wf : DotDims.WF S65536x257 S257x1024 S65536x1024 [1] [0] [0] [1] [] []
  dot_S65536x1024_S1024x512_S65536x512_1_0_0_1_n_n_wf : DotDims.WF S65536x1024 S1024x512 S65536x512 [1] [0] [0] [1] [] []
  dot_S65536x512_S512x1_S65536x1_1_0_0_1_n_n_wf : DotDims.WF S65536x512 S512x1 S65536x1 [1] [0] [0] [1] [] []

variable [Facts₀]

def dot_S65536x257_S257x1024_S65536x1024_1_0_0_1_n_n : DotDims S65536x257 S257x1024 S65536x1024 where
  lhsContracting := [1]
  rhsContracting := [0]
  lhsNonContracting := [0]
  rhsNonContracting := [1]
  lhsBatch := []
  rhsBatch := []
  wf := dot_S65536x257_S257x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf

class Facts : Prop extends Facts₀ where

variable [Facts]
-- ==== Proof.KernelWindows.lean ====
/-
  The arrays the grid finds, and the windows that do not move.

  Before the grid runs the weight table is cut into its first 256 rows and its row 256, and every parameter vector of
  length `n` is recast as the one row of a `[1, n]` array: one lemma per such array says what it holds (and, for a recast
  vector, that column `j` of its row is the vector's entry `j`). Every window
  other than the features' and the result's sits at block (0, 0) at each of the 64 grid points (decided over the
  points), and its block has the extents of its array, so its block is its whole array: one lemma per window. -/
import proofs.«110419_j65481071409833_2_alg».proof.Proof.Gen.KernelIdeal.Value
import Idealize.ShloMosaic.Lib.StableHlo.Run
import Idealize.ShloMosaic.PureOps.Ideal
import Idealize.ShloMosaic.Lib.ValueIdx
import Idealize.ShloMosaic.Lib.ValueLayout

noncomputable section

namespace Cert.Mlp.Windows

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the grid finds -/

/-- The table's first 256 rows. -/
theorem V_v0 (c : Dev nD) : (V m c main_v0 : S256x1024.Idx → EReal)
    = extractStridedSlice S256x1024 ![0, 0] (m ((c : Thread nD τ).loc main_arg1)) slices_S257x1024_S256x1024_0_0 := by
  dsimp only [Gen.V, Gen.hostOps0]; after_results
/-- The table's row 256. -/
theorem V_v1 (c : Dev nD) : (V m c main_v1 : S1x1024.Idx → EReal)
    = extractStridedSlice S1x1024 ![256, 0] (m ((c : Thread nD τ).loc main_arg1)) slices_S257x1024_S1x1024_256_0 := by
  dsimp only [Gen.V, Gen.hostOps0]; after_results
/-- `main_arg2` as the one row of a two-dimensional array … -/
theorem V_v2 (c : Dev nD) : (V m c main_v2 : S1x1024.Idx → EReal)
    = shapeCast S1x1024 (m ((c : Thread nD τ).loc main_arg2)) shapeCasts_S1024_S1x1024 := by
  dsimp only [Gen.V, Gen.hostOps0]; after_results; rfl
/-- … which reads, at column `j` of that row, the vector's entry `j`. -/
theorem row_v2 (c : Dev nD) (j : Fin 1024) :
    V m c main_v2 (ValueIdx.ix2 (0 : Fin 1) j) = m ((c : Thread nD τ).loc main_arg2) (ValueIdx.ix1 j) := by
  rw [V_v2]; exact shapeCast_a_1a_apply _ _ 0 j
/-- `main_arg3` as the one row of a two-dimensional array … -/
theorem V_v3 (c : Dev nD) : (V m c main_v3 : S1x1024.Idx → EReal)
    = shapeCast S1x1024 (m ((c : Thread nD τ).loc main_arg3)) shapeCasts_S1024_S1x1024 := by
  dsimp only [Gen.V, Gen.hostOps0]; after_results; rfl
/-- … which reads, at column `j` of that row, the vector's entry `j`. -/
theorem row_v3 (c : Dev nD) (j : Fin 1024) :
    V m c main_v3 (ValueIdx.ix2 (0 : Fin 1) j) = m ((c : Thread nD τ).loc main_arg3) (ValueIdx.ix1 j) := by
  rw [V_v3]; exact shapeCast_a_1a_apply _ _ 0 j
/-- `main_arg4` as the one row of a two-dimensional array … -/
theorem V_v4 (c : Dev nD) : (V m c main_v4 : S1x1024.Idx → EReal)
    = shapeCast S1x1024 (m ((c : Thread nD τ).loc main_arg4)) shapeCasts_S1024_S1x1024 := by
  dsimp only [Gen.V, Gen.hostOps0]; after_results; rfl
/-- … which reads, at column `j` of that row, the vector's entry `j`. -/
theorem row_v4 (c : Dev nD) (j : Fin 1024) :
    V m c main_v4 (ValueIdx.ix2 (0 : Fin 1) j) = m ((c : Thread nD τ).loc main_arg4) (ValueIdx.ix1 j) := by
  rw [V_v4]; exact shapeCast_a_1a_apply _ _ 0 j
/-- `main_arg5` as the one row of a two-dimensional array … -/
theorem V_v5 (c : Dev nD) : (V m c main_v5 : S1x1024.Idx → EReal)
    = shapeCast S1x1024 (m ((c : Thread nD τ).loc main_arg5)) shapeCasts_S1024_S1x1024 := by
  dsimp only [Gen.V, Gen.hostOps0]; after_results; rfl
/-- … which reads, at column `j` of that row, the vector's entry `j`. -/
theorem row_v5 (c : Dev nD) (j : Fin 1024) :
    V m c main_v5 (ValueIdx.ix2 (0 : Fin 1) j) = m ((c : Thread nD τ).loc main_arg5) (ValueIdx.ix1 j) := by
  rw [V_v5]; exact shapeCast_a_1a_apply _ _ 0 j
/-- `main_arg6` as the one row of a two-dimensional array … -/
theorem V_v6 (c : Dev nD) : (V m c main_v6 : S1x1024.Idx → EReal)
    = shapeCast S1x1024 (m ((c : Thread nD τ).loc main_arg6)) shapeCasts_S1024_S1x1024 := by
  dsimp only [Gen.V, Gen.hostOps0]; after_results; rfl
/-- … which reads, at column `j` of that row, the vector's entry `j`. -/
theorem row_v6 (c : Dev nD) (j : Fin 1024) :
    V m c main_v6 (ValueIdx.ix2 (0 : Fin 1) j) = m ((c : Thread nD τ).loc main_arg6) (ValueIdx.ix1 j) := by
  rw [V_v6]; exact shapeCast_a_1a_apply _ _ 0 j
/-- `main_arg8` as the one row of a two-dimensional array … -/
theorem V_v7 (c : Dev nD) : (V m c main_v7 : S1x512.Idx → EReal)
    = shapeCast S1x512 (m ((c : Thread nD τ).loc main_arg8)) shapeCasts_S512_S1x512 := by
  dsimp only [Gen.V, Gen.hostOps0]; after_results; rfl
/-- … which reads, at column `j` of that row, the vector's entry `j`. -/
theorem row_v7 (c : Dev nD) (j : Fin 512) :
    V m c main_v7 (ValueIdx.ix2 (0 : Fin 1) j) = m ((c : Thread nD τ).loc main_arg8) (ValueIdx.ix1 j) := by
  rw [V_v7]; exact shapeCast_a_1a_apply _ _ 0 j
/-- `main_arg9` as the one row of a two-dimensional array … -/
theorem V_v8 (c : Dev nD) : (V m c main_v8 : S1x512.Idx → EReal)
    = shapeCast S1x512 (m ((c : Thread nD τ).loc main_arg9)) shapeCasts_S512_S1x512 := by
  dsimp only [Gen.V, Gen.hostOps0]; after_results; rfl
/-- … which reads, at column `j` of that row, the vector's entry `j`. -/
theorem row_v8 (c : Dev nD) (j : Fin 512) :
    V m c main_v8 (ValueIdx.ix2 (0 : Fin 1) j) = m ((c : Thread nD τ).loc main_arg9) (ValueIdx.ix1 j) := by
  rw [V_v8]; exact shapeCast_a_1a_apply _ _ 0 j
/-- `main_arg10` as the one row of a two-dimensional array … -/
theorem V_v9 (c : Dev nD) : (V m c main_v9 : S1x512.Idx → EReal)
    = shapeCast S1x512 (m ((c : Thread nD τ).loc main_arg10)) shapeCasts_S512_S1x512 := by
  dsimp only [Gen.V, Gen.hostOps0]; after_results; rfl
/-- … which reads, at column `j` of that row, the vector's entry `j`. -/
theorem row_v9 (c : Dev nD) (j : Fin 512) :
    V m c main_v9 (ValueIdx.ix2 (0 : Fin 1) j) = m ((c : Thread nD τ).loc main_arg10) (ValueIdx.ix1 j) := by
  rw [V_v9]; exact shapeCast_a_1a_apply _ _ 0 j
/-- `main_arg11` as the one row of a two-dimensional array … -/
theorem V_v10 (c : Dev nD) : (V m c main_v10 : S1x512.Idx → EReal)
    = shapeCast S1x512 (m ((c : Thread nD τ).loc main_arg11)) shapeCasts_S512_S1x512 := by
  dsimp only [Gen.V, Gen.hostOps0]; after_results; rfl
/-- … which reads, at column `j` of that row, the vector's entry `j`. -/
theorem row_v10 (c : Dev nD) (j : Fin 512) :
    V m c main_v10 (ValueIdx.ix2 (0 : Fin 1) j) = m ((c : Thread nD τ).loc main_arg11) (ValueIdx.ix1 j) := by
  rw [V_v10]; exact shapeCast_a_1a_apply _ _ 0 j
/-- `main_arg12` as the one row of a two-dimensional array … -/
theorem V_v11 (c : Dev nD) : (V m c main_v11 : S1x512.Idx → EReal)
    = shapeCast S1x512 (m ((c : Thread nD τ).loc main_arg12)) shapeCasts_S512_S1x512 := by
  dsimp only [Gen.V, Gen.hostOps0]; after_results; rfl
/-- … which reads, at column `j` of that row, the vector's entry `j`. -/
theorem row_v11 (c : Dev nD) (j : Fin 512) :
    V m c main_v11 (ValueIdx.ix2 (0 : Fin 1) j) = m ((c : Thread nD τ).loc main_arg12) (ValueIdx.ix1 j) := by
  rw [V_v11]; exact shapeCast_a_1a_apply _ _ 0 j
/-- `main_arg14` as the one row of a two-dimensional array … -/
theorem V_v12 (c : Dev nD) : (V m c main_v12 : S1x1.Idx → EReal)
    = shapeCast S1x1 (m ((c : Thread nD τ).loc main_arg14)) shapeCasts_S1_S1x1 := by
  dsimp only [Gen.V, Gen.hostOps0]; after_results; rfl
/-- … which reads, at column `j` of that row, the vector's entry `j`. -/
theorem row_v12 (c : Dev nD) (j : Fin 1) :
    V m c main_v12 (ValueIdx.ix2 (0 : Fin 1) j) = m ((c : Thread nD τ).loc main_arg14) (ValueIdx.ix1 j) := by
  rw [V_v12]; exact shapeCast_a_1a_apply _ _ 0 j

/-! ## The windows that do not move -/

theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)

/-- Window 1's block at any point is the whole of `main_v0`. -/
theorem blk1 (c : Dev nD) (t : Fin cfg0.N) : iblk m c 1 t = V m c main_v0 := by
  funext y
  show V m c main_v0 (((cfg0.win 1).blk t).view.emb y) = V m c main_v0 y
  obtain ⟨h0, h1⟩ := idx1 t
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 1024 + 1 * (y 1).val = (y 1).val; omega
/-- Window 2's block at any point is the whole of `main_v1`. -/
theorem blk2 (c : Dev nD) (t : Fin cfg0.N) : iblk m c 2 t = V m c main_v1 := by
  funext y
  show V m c main_v1 (((cfg0.win 2).blk t).view.emb y) = V m c main_v1 y
  obtain ⟨h0, h1⟩ := idx2 t
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1024 + 1 * (y 1).val = (y 1).val; omega
/-- Window 3's block at any point is the whole of `main_v2`. -/
theorem blk3 (c : Dev nD) (t : Fin cfg0.N) : iblk m c 3 t = V m c main_v2 := by
  funext y
  show V m c main_v2 (((cfg0.win 3).blk t).view.emb y) = V m c main_v2 y
  obtain ⟨h0, h1⟩ := idx3 t
  refine congrArg _ (funext fun a => Fin.ext ?_)
  match a with
  | ⟨0, _⟩ => show win0_3.index t (0 : Fin 2) * 1 + 1 * (y 0).val = (y 0).val; omega
  | ⟨1, _⟩ => show win0_3.index t (1 : Fin 2) * 1024 + 1 * (y 1).val = (y 1).val; omega
/-- Window 4's block at any point is the whole of `main_v3`. -/
theorem blk4 (c : Dev nD) (t : Fin cfg0.N) : iblk m c 4 t = V m c main_v3 := by
  funext y
  show V m c main_v3 (((cfg0.win 4).blk t).view.emb y) = V m c main_v3 y
  obtain ⟨h0, h1⟩ := idx4 t
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 1024 + 1 * (y 1).val = (y 1).val; omega
/-- Window 5's block at any point is the whole of `main_v4`. -/
theorem blk5 (c : Dev nD) (t : Fin cfg0.N) : iblk m c 5 t = V m c main_v4 := by
  funext y
  show V m c main_v4 (((cfg0.win 5).blk t).view.emb y) = V m c main_v4 y
  obtain ⟨h0, h1⟩ := idx5 t
  refine congrArg _ (funext fun a => Fin.ext ?_)
  match a with
  | ⟨0, _⟩ => show win0_5.index t (0 : Fin 2) * 1 + 1 * (y 0).val = (y 0).val; omega
  | ⟨1, _⟩ => show win0_5.index t (1 : Fin 2) * 1024 + 1 * (y 1).val = (y 1).val; omega
/-- Window 6's block at any point is the whole of `main_v5`. -/
theorem blk6 (c : Dev nD) (t : Fin cfg0.N) : iblk m c 6 t = V m c main_v5 := by
  funext y
  show V m c main_v5 (((cfg0.win 6).blk t).view.emb y) = V m c main_v5 y
  obtain ⟨h0, h1⟩ := idx6 t
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 1024 + 1 * (y 1).val = (y 1).val; omega
/-- Window 7's block at any point is the whole of `main_v6`. -/
theorem blk7 (c : Dev nD) (t : Fin cfg0.N) : iblk m c 7 t = V m c main_v6 := by
  funext y
  show V m c main_v6 (((cfg0.win 7).blk t).view.emb y) = V m c main_v6 y
  obtain ⟨h0, h1⟩ := idx7 t
  refine congrArg _ (funext fun a => Fin.ext ?_)
  match a with
  | ⟨0, _⟩ => show win0_7.index t (0 : Fin 2) * 1 + 1 * (y 0).val = (y 0).val; omega
  | ⟨1, _⟩ => show win0_7.index t (1 : Fin 2) * 1024 + 1 * (y 1).val = (y 1).val; omega
/-- Window 8's block at any point is the whole of `main_arg7`. -/
theorem blk8 (c : Dev nD) (t : Fin cfg0.N) : iblk m c 8 t = V m c main_arg7 := by
  funext y
  show V m c main_arg7 (((cfg0.win 8).blk t).view.emb y) = V m c main_arg7 y
  obtain ⟨h0, h1⟩ := idx8 t
  refine congrArg _ (funext fun a => Fin.ext ?_)
  match a with
  | ⟨0, _⟩ => show win0_8.index t (0 : Fin 2) * 1024 + 1 * (y 0).val = (y 0).val; omega
  | ⟨1, _⟩ => show win0_8.index t (1 : Fin 2) * 512 + 1 * (y 1).val = (y 1).val; omega
/-- Window 9's block at any point is the whole of `main_v7`. -/
theorem blk9 (c : Dev nD) (t : Fin cfg0.N) : iblk m c 9 t = V m c main_v7 := by
  funext y
  show V m c main_v7 (((cfg0.win 9).blk t).view.emb y) = V m c main_v7 y
  obtain ⟨h0, h1⟩ := idx9 t
  refine congrArg _ (funext fun a => Fin.ext ?_)
  match a with
  | ⟨0, _⟩ => show win0_9.index t (0 : Fin 2) * 1 + 1 * (y 0).val = (y 0).val; omega
  | ⟨1, _⟩ => show win0_9.index t (1 : Fin 2) * 512 + 1 * (y 1).val = (y 1).val; omega
/-- Window 10's block at any point is the whole of `main_v8`. -/
theorem blk10 (c : Dev nD) (t : Fin cfg0.N) : iblk m c 10 t = V m c main_v8 := by
  funext y
  show V m c main_v8 (((cfg0.win 10).blk t).view.emb y) = V m c main_v8 y
  obtain ⟨h0, h1⟩ := idx10 t
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 512 + 1 * (y 1).val = (y 1).val; omega
/-- Window 11's block at any point is the whole of `main_v9`. -/
theorem blk11 (c : Dev nD) (t : Fin cfg0.N) : iblk m c 11 t = V m c main_v9 := by
  funext y
  show V m c main_v9 (((cfg0.win 11).blk t).view.emb y) = V m c main_v9 y
  obtain ⟨h0, h1⟩ := idx11 t
  refine congrArg _ (funext fun a => Fin.ext ?_)
  match a with
  | ⟨0, _⟩ => show win0_11.index t (0 : Fin 2) * 1 + 1 * (y 0).val = (y 0).val; omega
  | ⟨1, _⟩ => show win0_11.index t (1 : Fin 2) * 512 + 1 * (y 1).val = (y 1).val; omega
/-- Window 12's block at any point is the whole of `main_v10`. -/
theorem blk12 (c : Dev nD) (t : Fin cfg0.N) : iblk m c 12 t = V m c main_v10 := by
  funext y
  show V m c main_v10 (((cfg0.win 12).blk t).view.emb y) = V m c main_v10 y
  obtain ⟨h0, h1⟩ := idx12 t
  refine congrArg _ (funext fun a => Fin.ext ?_)
  match a with
  | ⟨0, _⟩ => show win0_12.index t (0 : Fin 2) * 1 + 1 * (y 0).val = (y 0).val; omega
  | ⟨1, _⟩ => show win0_12.index t (1 : Fin 2) * 512 + 1 * (y 1).val = (y 1).val; omega
/-- Window 13's block at any point is the whole of `main_v11`. -/
theorem blk13 (c : Dev nD) (t : Fin cfg0.N) : iblk m c 13 t = V m c main_v11 := by
  funext y
  show V m c main_v11 (((cfg0.win 13).blk t).view.emb y) = V m c main_v11 y
  obtain ⟨h0, h1⟩ := idx13 t
  refine congrArg _ (funext fun a => Fin.ext ?_)
  match a with
  | ⟨0, _⟩ => show win0_13.index t (0 : Fin 2) * 1 + 1 * (y 0).val = (y 0).val; omega
  | ⟨1, _⟩ => show win0_13.index t (1 : Fin 2) * 512 + 1 * (y 1).val = (y 1).val; omega
/-- Window 14's block at any point is the whole of `main_arg13`. -/
theorem blk14 (c : Dev nD) (t : Fin cfg0.N) : iblk m c 14 t = V m c main_arg13 := by
  funext y
  show V m c main_arg13 (((cfg0.win 14).blk t).view.emb y) = V m c main_arg13 y
  obtain ⟨h0, h1⟩ := idx14 t
  refine congrArg _ (funext fun a => Fin.ext ?_)
  match a with
  | ⟨0, _⟩ => show win0_14.index t (0 : Fin 2) * 512 + 1 * (y 0).val = (y 0).val; omega
  | ⟨1, _⟩ => show win0_14.index t (1 : Fin 2) * 1 + 1 * (y 1).val = (y 1).val; omega
/-- Window 15's block at any point is the whole of `main_v12`. -/
theorem blk15 (c : Dev nD) (t : Fin cfg0.N) : iblk m c 15 t = V m c main_v12 := by
  funext y
  show V m c main_v12 (((cfg0.win 15).blk t).view.emb y) = V m c main_v12 y
  obtain ⟨h0, h1⟩ := idx15 t
  refine congrArg _ (funext fun a => Fin.ext ?_)
  match a with
  | ⟨0, _⟩ => show win0_15.index t (0 : Fin 2) * 1 + 1 * (y 0).val = (y 0).val; omega
  | ⟨1, _⟩ => show win0_15.index t (1 : Fin 2) * 1 + 1 * (y 1).val = (y 1).val; omega

end Cert.Mlp.Windows

end
-- ==== Proof.LibPlainDot.lean ====
/-
  A plain matrix product read at an index, on the extended reals.

  For the dimension numbers `<[1], [0], [0], [1]>` with no batch axis (`DotDims.plain M K N`, or any record equal to
  it: an `M×K` left operand, a `K×N` right operand, the left's second axis contracted with the right's first) the
  entry `(a, b)` of the product is `∑ k, l[a,k] · r[k,b]`. Two operations compute it at the exact instance: a
  `tpu.matmul` into a zero accumulator and the host's `dot_general`. Both are stated here as equalities of whole
  arrays with one function, `rowsByCols l r`, so that a product computed block of rows by block of rows and the same
  product computed at once are compared through one name.
-/
import Idealize.ShloMosaic.Lib.ValueIdx
import Idealize.ShloMosaic.PureOps.Ideal.Laws

noncomputable section

namespace Cert.Lib.PlainDot

open Idealize.ShloMosaic Idealize.ShloMosaic.ValueIdx

/-- The product of an `M×K` array by a `K×N` array, index by index: entry `(a, b)` is `∑ k, l[a,k] · r[k,b]`. -/
def rowsByCols {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem rowsByCols_apply {M K N : ℕ} (l : (⟨2, ![M, K]⟩ : Shape).Idx → EReal) (r : (⟨2, ![K, N]⟩ : Shape).Idx → EReal)
    (j : (⟨2, ![M, N]⟩ : Shape).Idx) : rowsByCols l r j = ∑ k : Fin K, l (ix2 (j 0) k) * r (ix2 k (j 1)) := rfl

/-- The left operand's index at result index `j` and contraction position `q`: row `j 0` … -/
theorem lhsIdx_row {M K N : ℕ} (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and column the contraction position's one coordinate. -/
theorem lhsIdx_col {M K N : ℕ} (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: row the contraction position's one coordinate … -/
theorem rhsIdx_row {M K N : ℕ} (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and column `j 1`. -/
theorem rhsIdx_col {M K N : ℕ} (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the record's one-axis contraction shape, with the operands read at the record's operand indices, is
    the sum over `k < K` of `l[a,k] · r[k,b]`: the contraction index is its one coordinate, the left index at `(j, k)`
    is `(j 0, k)` and the right index is `(k, j 1)`. -/
theorem contr_sum {M K N : ℕ} (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ q : d.contr.Idx, l (d.lhsIdx j q) * r (d.rhsIdx j q) = rowsByCols l r j := by
  subst hd
  unfold rowsByCols
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhsIdx_row j _
      | ⟨1, _⟩ => exact (lhsIdx_col j _).trans hk)
  have er : (DotDims.plain M K N).rhsIdx j ((contrEquiv1 (DotDims.plain M K N) K rfl rfl).symm k) = ix2 k (j 1) :=
    funext fun a => Fin.ext (by
      match a with
      | ⟨0, _⟩ => exact (rhsIdx_row j _).trans hk
      | ⟨1, _⟩ => exact rhsIdx_col j _)
  exact congrArg₂ (· * ·) (congrArg l el) (congrArg r er)

/-- A `tpu.matmul` with plain dimension numbers into the zero accumulator is the product, whatever the operands'
    float formats and the precision attribute. -/
theorem matmul_zero_eq {M K N : ℕ} {φ₁ φ₂ : FTy} (d : DotDims ⟨2, ![M, K]⟩ ⟨2, ![K, N]⟩ ⟨2, ![M, N]⟩)
    (hd : d = DotDims.plain M K N) (prec : Option ContractPrecision)
    (l : FVec Ideal ⟨2, ![M, K]⟩ φ₁) (r : FVec Ideal ⟨2, ![K, N]⟩ φ₂) :
    FloatOps.matmul d prec l r (constant (F := Ideal) ⟨2, ![M, N]⟩ .f32 0x00000000#32) = rowsByCols l r :=
  funext fun j => (Ideal.matmul_constant_zero_apply d prec l r j).trans (contr_sum d hd l r j)

/-- The host's `dot_general` with plain dimension numbers is the product, whatever the precision and the schedule. -/
theorem dotGeneral_eq {M K N : ℕ} {φ₁ φ₂ : FTy} (d : DotDims ⟨2, ![M, K]⟩ ⟨2, ![K, N]⟩ ⟨2, ![M, N]⟩)
    (hd : d = DotDims.plain M K N) (prec : Option ContractPrecision) (sched : HostSchedule)
    (l : FVec Ideal ⟨2, ![M, K]⟩ φ₁) (r : FVec Ideal ⟨2, ![K, N]⟩ φ₂) :
    FloatOps.dotGeneral d prec sched l r = rowsByCols l r :=
  funext fun j => (Ideal.dotGeneral_apply d prec sched l r j).trans (contr_sum d hd l r j)

/-- Two products agree at two indices when their operands agree along the row and the column read there: if
    `l'[j' 0, k] = l[j 0, k]` and `r'[k, j' 1] = r[k, j 1]` for every `k`, then `(l' · r')[j'] = (l · r)[j]`. In
    particular rows of a product are the product of the rows: with `l'` a block of rows of `l` and `r' = r`, the
    block's product at `(p, b)` is the whole product at `(o + p, b)`. -/
theorem rowsByCols_congr {M M' K N N' : ℕ} (l : (⟨2, ![M, K]⟩ : Shape).Idx → EReal) (r : (⟨2, ![K, N]⟩ : Shape).Idx → EReal)
    (l' : (⟨2, ![M', K]⟩ : Shape).Idx → EReal) (r' : (⟨2, ![K, N']⟩ : Shape).Idx → EReal)
    (j' : (⟨2, ![M', N']⟩ : Shape).Idx) (j : (⟨2, ![M, N]⟩ : Shape).Idx)
    (hl : ∀ k : Fin K, l' (ix2 (j' 0) k) = l (ix2 (j 0) k)) (hr : ∀ k : Fin K, r' (ix2 k (j' 1)) = r (ix2 k (j 1))) :
    rowsByCols l' r' j' = rowsByCols l r j := by
  unfold rowsByCols
  exact Finset.sum_congr rfl fun k _ => by rw [hl k, hr k]

end Cert.Lib.PlainDot

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.Net.lean ====
/-
  The network applied to one sample, on the extended reals.

  A sample is a row of 256 features. Its gate is 1 when the mean of the row is positive and 0 otherwise. The first
  hidden layer has 1024 units: unit `j` takes the 256 features against the first 256 rows of the weight table, adds
  the gate times row 256 of the table and a bias, subtracts a running mean, scales by a gain and by the reciprocal
  square root of a running variance plus a small constant, adds a shift and is cut off below at zero. The second hidden
  layer (512 units) does the same to the first layer's outputs, without a gate term. The score is the logistic
  function of the second layer's outputs against one weight column plus a bias.

  Two ways of writing the same number are joined here. A sum over 257 positions whose first 256 terms are the
  features against the table's rows and whose last term is the gate against row 256 is the sum of the first 256 terms
  plus the last one: addition of extended reals is commutative and associative, so no finiteness is asked. And
  `1 / (1 + exp (-z))` with the quotient of the extended reals is the logistic function at `z`, by definition.
-/
import Idealize.ShloMosaic.PureOps.Ideal
import Idealize.ShloMosaic.Lib.ValueIdx

noncomputable section

namespace Cert.Mlp

open Idealize.ShloMosaic

/-- The single-precision words the two programs spell: 256, 1, 0 and the variance's small constant. -/
abbrev w256 : EReal := Ideal.ofBits .f32 0x43800000#32
abbrev wOne : EReal := Ideal.ofBits .f32 0x3F800000#32
abbrev wZero : EReal := Ideal.ofBits .f32 0x00000000#32
abbrev wEps : EReal := Ideal.ofBits .f32 0x3727C5AC#32

/-- The gate of a row: 1 where the row's sum over 256 is positive, 0 elsewhere. -/
def gate (xr : Fin 256 → EReal) : EReal :=
  Scalar.select (Ideal.cmp .ogt (Ideal.div (∑ k, xr k) w256) wZero) wOne wZero

/-- One normalised, rectified unit: `max (g · (h − m) · rsqrt (v + ε) + be) 0`. -/
def unit (h g be m v : EReal) : EReal :=
  max (g * (h - m) * Ideal.rsqrt (v + wEps) + be) wZero

/-- Unit `j` of the first hidden layer, of a row, the table's first 256 rows `Wa`, its last row `wl` and the
    layer's five parameter vectors. -/
def hidden1 (xr : Fin 256 → EReal) (Wa : Fin 256 → Fin 1024 → EReal) (wl b g be m v : Fin 1024 → EReal)
    (j : Fin 1024) : EReal :=
  unit ((∑ k, xr k * Wa k j) + gate xr * wl j + b j) (g j) (be j) (m j) (v j)

/-- Unit `j` of the second hidden layer, of the first layer's outputs. -/
def hidden2 (a : Fin 1024 → EReal) (W : Fin 1024 → Fin 512 → EReal) (b g be m v : Fin 512 → EReal)
    (j : Fin 512) : EReal :=
  unit ((∑ k, a k * W k j) + b j) (g j) (be j) (m j) (v j)

/-- The score of the second layer's outputs. -/
def score (a : Fin 512 → EReal) (W : Fin 512 → EReal) (b : EReal) : EReal :=
  Ideal.logistic ((∑ k, a k * W k) + b)

/-- The whole network on one row. -/
def net (xr : Fin 256 → EReal) (Wa : Fin 256 → Fin 1024 → EReal) (wl b1 g1 be1 m1 v1 : Fin 1024 → EReal)
    (W2 : Fin 1024 → Fin 512 → EReal) (b2 g2 be2 m2 v2 : Fin 512 → EReal) (W3 : Fin 512 → EReal) (b3 : EReal) : EReal :=
  score (hidden2 (hidden1 xr Wa wl b1 g1 be1 m1 v1) W2 b2 g2 be2 m2 v2) W3 b3

/-- The network depends on its sixteen arguments only through their values. -/
theorem net_congr {xr xr' : Fin 256 → EReal} {Wa Wa' : Fin 256 → Fin 1024 → EReal}
    {wl wl' b1 b1' g1 g1' be1 be1' m1 m1' v1 v1' : Fin 1024 → EReal} {W2 W2' : Fin 1024 → Fin 512 → EReal}
    {b2 b2' g2 g2' be2 be2' m2 m2' v2 v2' : Fin 512 → EReal} {W3 W3' : Fin 512 → EReal} {b3 b3' : EReal}
    (h0 : ∀ k, xr k = xr' k) (h1 : ∀ k j, Wa k j = Wa' k j) (h2 : ∀ j, wl j = wl' j) (h3 : ∀ j, b1 j = b1' j)
    (h4 : ∀ j, g1 j = g1' j) (h5 : ∀ j, be1 j = be1' j) (h6 : ∀ j, m1 j = m1' j) (h7 : ∀ j, v1 j = v1' j)
    (h8 : ∀ k j, W2 k j = W2' k j) (h9 : ∀ j, b2 j = b2' j) (h10 : ∀ j, g2 j = g2' j) (h11 : ∀ j, be2 j = be2' j)
    (h12 : ∀ j, m2 j = m2' j) (h13 : ∀ j, v2 j = v2' j) (h14 : ∀ k, W3 k = W3' k) (h15 : b3 = b3') :
    net xr Wa wl b1 g1 be1 m1 v1 W2 b2 g2 be2 m2 v2 W3 b3
      = net xr' Wa' wl' b1' g1' be1' m1' v1' W2' b2' g2' be2' m2' v2' W3' b3' := by
  obtain rfl : xr = xr' := funext h0
  obtain rfl : Wa = Wa' := funext fun k => funext (h1 k)
  obtain rfl : wl = wl' := funext h2
  obtain rfl : b1 = b1' := funext h3
  obtain rfl : g1 = g1' := funext h4
  obtain rfl : be1 = be1' := funext h5
  obtain rfl : m1 = m1' := funext h6
  obtain rfl : v1 = v1' := funext h7
  obtain rfl : W2 = W2' := funext fun k => funext (h8 k)
  obtain rfl : b2 = b2' := funext h9
  obtain rfl : g2 = g2' := funext h10
  obtain rfl : be2 = be2' := funext h11
  obtain rfl : m2 = m2' := funext h12
  obtain rfl : v2 = v2' := funext h13
  obtain rfl : W3 = W3' := funext h14
  obtain rfl := h15
  rfl

/-- THE RESULT ARRAY: entry `(p, 0)` is the network on row `p` of the features `x`, with the first 256 rows of the weight
    table `W1`, its row 256, and the parameter vectors as they are given. -/
def scores (x : (⟨2, ![65536, 256]⟩ : Shape).Idx → EReal) (W1 : (⟨2, ![257, 1024]⟩ : Shape).Idx → EReal)
    (b1 g1 be1 m1 v1 : (⟨1, ![1024]⟩ : Shape).Idx → EReal) (W2 : (⟨2, ![1024, 512]⟩ : Shape).Idx → EReal)
    (b2 g2 be2 m2 v2 : (⟨1, ![512]⟩ : Shape).Idx → EReal) (W3 : (⟨2, ![512, 1]⟩ : Shape).Idx → EReal)
    (b3 : (⟨1, ![1]⟩ : Shape).Idx → EReal) : (⟨2, ![65536, 1]⟩ : Shape).Idx → EReal := fun i =>
  net (fun k => x (ValueIdx.ix2 (i 0) k)) (fun k j => W1 (ValueIdx.ix2 k.castSucc j)) (fun j => W1 (ValueIdx.ix2 (Fin.last 256) j))
    (fun j => b1 (ValueIdx.ix1 j)) (fun j => g1 (ValueIdx.ix1 j)) (fun j => be1 (ValueIdx.ix1 j)) (fun j => m1 (ValueIdx.ix1 j))
    (fun j => v1 (ValueIdx.ix1 j)) (fun k j => W2 (ValueIdx.ix2 k j)) (fun j => b2 (ValueIdx.ix1 j)) (fun j => g2 (ValueIdx.ix1 j))
    (fun j => be2 (ValueIdx.ix1 j)) (fun j => m2 (ValueIdx.ix1 j)) (fun j => v2 (ValueIdx.ix1 j))
    (fun k => W3 (ValueIdx.ix2 k (0 : Fin 1))) (b3 (ValueIdx.ix1 (0 : Fin 1)))

/-- A sum over 257 positions is the sum over the first 256 plus the term at position 256. -/
theorem sum_joined (f : Fin 257 → EReal) :
    ∑ k : Fin 257, f k = (∑ k : Fin 256, f k.castSucc) + f (Fin.last 256) :=
  Fin.sum_univ_castSucc f

/-- The word `0x3F800000` is the number one. -/
theorem wOne_eq : wOne = 1 := by
  simp [wOne, Ideal.ofBits, Ideal.ieee]
  rw [← EReal.coe_mul]
  norm_num

/-- `1 / (1 + exp (-z))`, with the ones spelt as words, is the logistic function at `z`. -/
theorem spelt_logistic (z : EReal) : Ideal.div wOne (wOne + Ideal.exp (-z)) = Ideal.logistic z := by
  rw [wOne_eq]; rfl

end Cert.Mlp

end
-- ==== Proof.KernelBody.lean ====
/-
  The kernel body's result for one block, read at a row.

  At a grid point the body holds a block of 1024 rows of the features and the whole of every parameter array, each as
  a two-dimensional array (a vector of length `n` as the one row of a `[1, n]` array). Its stored value at row `p`
  is the network of `Net.lean` applied to row `p` of the block: the three matrix products are sums over the
  contracted axis, the changes of float format are the identity on the extended reals, the row vectors are spread
  over the 1024 rows, and the gate column is spread over the 1024 units.
-/
import proofs.«110419_j65481071409833_2_alg».proof.Proof.Gen.KernelIdeal.Skeleton
import proofs.«110419_j65481071409833_2_alg».proof.Proof.LibPlainDot
import proofs.«110419_j65481071409833_2_alg».proof.Proof.LibKeepdimsColumn
import proofs.«110419_j65481071409833_2_alg».proof.Proof.Net
import Idealize.ShloMosaic.Lib.Pipeline.Value
import Idealize.ShloMosaic.Lib.ValueLayout

noncomputable section

namespace Cert.Mlp.Body

open Idealize.ShloMosaic Idealize.ShloMosaic.ValueIdx Cert.KernelIdeal Cert.KernelIdeal.Gen Cert.Lib.PlainDot Cert.Gcn.Lib

/-- A matrix product into a zero accumulator at entry `(a, b)`: the sum over the contracted axis. -/
theorem mm_apply {M K N : ℕ} {φ₁ φ₂ : FTy} (d : DotDims ⟨2, ![M, K]⟩ ⟨2, ![K, N]⟩ ⟨2, ![M, N]⟩)
    (hd : d = DotDims.plain M K N) (l : FVec Ideal ⟨2, ![M, K]⟩ φ₁) (r : FVec Ideal ⟨2, ![K, N]⟩ φ₂) (a : Fin M) (b : Fin N) :
    matmul d none l r (constant ⟨2, ![M, N]⟩ .f32 0x00000000#32) (ix2 a b) = ∑ k : Fin K, l (ix2 a k) * r (ix2 k b) :=
  congrFun (matmul_zero_eq d hd none l r) (ix2 a b)

/-- The reciprocal square root and the logistic function act entry by entry. -/
theorem rsqrt_apply {s : Shape} {φ : FTy} (a : FVec Ideal s φ) (i : s.Idx) : rsqrt a i = Ideal.rsqrt (a i) := rfl
theorem logistic_apply {s : Shape} {φ : FTy} (a : FVec Ideal s φ) (i : s.Idx) : logistic a i = Ideal.logistic (a i) := rfl

/-- The first layer before its second scaling: at row `p` and unit `j`, the gain times (the features against the
    table, plus the gate times the table's last row, plus the bias, minus the running mean). -/
theorem pay4_apply (x0 : FVec Ideal S1024x256 .f32) (x1 : FVec Ideal S256x1024 .f32) (x2 x3 x4 x6 : FVec Ideal S1x1024 .f32)
    (p j : Fin 1024) :
    k0_pay4 (F := Ideal) x0 x1 x2 x3 x4 x6 (ix2 p j)
      = x4 (ix2 (0 : Fin 1) j) * ((∑ k : Fin 256, x0 (ix2 p k) * x1 (ix2 k j))
          + gate (fun k => x0 (ix2 p k)) * x2 (ix2 (0 : Fin 1) j) + x3 (ix2 (0 : Fin 1) j) - x6 (ix2 (0 : Fin 1) j)) := by
  unfold k0_pay4
  simp only [mulf_apply, subf_apply, addf_apply, shapeCast_self, broadcastTo_1b_ab_apply, broadcastTo_a1_ab_apply,
    matmul_zero_eq _ rfl, rowsByCols_apply, truncf_apply, select_apply, cmpf_apply, divf_apply, broadcast_apply,
    shapeCast_a_a1_apply, rowsum_apply]
  have hmm : matmul dot_S1024x256_S256x1024_S1024x1024_1_0_0_1_n_n none (truncf .bf16 x0 bitsLt_bf16_f32)
      (truncf .bf16 x1 bitsLt_bf16_f32) (constant S1024x1024 .f32 0#32) (ix2 p j)
      = ∑ k : Fin 256, x0 (ix2 p k) * x1 (ix2 k j) :=
    congrFun (matmul_zero_eq dot_S1024x256_S256x1024_S1024x1024_1_0_0_1_n_n rfl none
      (truncf .bf16 x0 bitsLt_bf16_f32) (truncf .bf16 x1 bitsLt_bf16_f32)) (ix2 p j)
  have hs : multiReduction .add [1] S1024 x0 0#32 reduces_S1024x256_S1024 (.inl rfl) rfl (ix1 p)
      = ∑ k : Fin 256, x0 (ix2 p k) := rowsum_apply x0 _ _ rfl p
  rw [hmm, hs]
  rfl

/-- The second layer's outputs, from the first layer's value `u` before its second scaling, the first layer's shift
    `s` and variance `w`: at row `p` and unit `j`, the unit of the first layer's rectified outputs against the second
    weight table plus the bias. -/
theorem pay5_apply (s w : FVec Ideal S1x1024 .f32) (u : FVec Ideal S1024x1024 .f32) (x8 : FVec Ideal S1024x512 .f32)
    (x9 x10 x11 x12 x13 : FVec Ideal S1x512 .f32) (p : Fin 1024) (j : Fin 512) :
    k0_pay5 (F := Ideal) s w u x8 x9 x10 x11 x12 x13 (ix2 p j)
      = unit ((∑ k : Fin 1024, max (u (ix2 p k) * Ideal.rsqrt (w (ix2 (0 : Fin 1) k) + wEps) + s (ix2 (0 : Fin 1) k)) wZero
            * x8 (ix2 k j)) + x9 (ix2 (0 : Fin 1) j))
          (x10 (ix2 (0 : Fin 1) j)) (x11 (ix2 (0 : Fin 1) j)) (x12 (ix2 (0 : Fin 1) j)) (x13 (ix2 (0 : Fin 1) j)) := by
  unfold k0_pay5
  simp only [mulf_apply, subf_apply, addf_apply, maximumf_apply, shapeCast_self, broadcastTo_1b_ab_apply,
    mm_apply dot_S1024x1024_S1024x512_S1024x512_1_0_0_1_n_n rfl, truncf_apply, broadcast_apply, rsqrt_apply]
  rfl

/-- The score column: at row `p`, the logistic function of the second layer's outputs against the last weight
    column plus the bias. -/
theorem pay1_apply (a : FVec Ideal S1024x512 .bf16) (c : FVec Ideal S512x1 .bf16) (x15 : FVec Ideal S1x1 .f32) (p : Fin 1024) :
    k0_pay1 (F := Ideal) a c x15 (ix2 p (0 : Fin 1))
      = Ideal.logistic ((∑ k : Fin 512, a (ix2 p k) * c (ix2 k (0 : Fin 1))) + x15 (ix2 (0 : Fin 1) (0 : Fin 1))) := by
  unfold k0_pay1
  simp only [addf_apply, shapeCast_self, broadcastTo_1b_ab_apply, mm_apply dot_S1024x512_S512x1_S1024x1_1_0_0_1_n_n rfl,
    logistic_apply]

/-- THE BLOCK'S STORED VALUE AT ROW `p` is the network on row `p` of the feature block, with the table's first 256
    rows, its last row and every parameter vector read off their two-dimensional blocks. -/
theorem block_row (x0 : FVec Ideal S1024x256 .f32) (x1 : FVec Ideal S256x1024 .f32) (x2 x3 x4 x5 x6 x7 : FVec Ideal S1x1024 .f32)
    (x8 : FVec Ideal S1024x512 .f32) (x9 x10 x11 x12 x13 : FVec Ideal S1x512 .f32) (x14 : FVec Ideal S512x1 .f32)
    (x15 : FVec Ideal S1x1 .f32) (p : Fin 1024) :
    k0_pay1 (F := Ideal) (k0_pay5 (k0_pay2 x5) (k0_pay3 x7) (k0_pay4 x0 x1 x2 x3 x4 x6) x8 x9 x10 x11 x12 x13) (k0_pay6 x14) x15
        (ix2 p (0 : Fin 1))
      = net (fun k => x0 (ix2 p k)) (fun k j => x1 (ix2 k j)) (fun j => x2 (ix2 (0 : Fin 1) j)) (fun j => x3 (ix2 (0 : Fin 1) j))
          (fun j => x4 (ix2 (0 : Fin 1) j)) (fun j => x5 (ix2 (0 : Fin 1) j)) (fun j => x6 (ix2 (0 : Fin 1) j))
          (fun j => x7 (ix2 (0 : Fin 1) j)) (fun k j => x8 (ix2 k j)) (fun j => x9 (ix2 (0 : Fin 1) j))
          (fun j => x10 (ix2 (0 : Fin 1) j)) (fun j => x11 (ix2 (0 : Fin 1) j)) (fun j => x12 (ix2 (0 : Fin 1) j))
          (fun j => x13 (ix2 (0 : Fin 1) j)) (fun k => x14 (ix2 k (0 : Fin 1))) (x15 (ix2 (0 : Fin 1) (0 : Fin 1))) := by
  rw [pay1_apply]
  simp only [pay5_apply, pay4_apply, k0_pay2, k0_pay3, k0_pay6, shapeCast_self, truncf_apply]
  rfl

end Cert.Mlp.Body

end
-- ==== Proof.KernelArray.lean ====
/-
  From blocks to the array: the kernel's result array is `scores` of its arguments.

  The grid has 64 points. At point `t` the feature window holds rows `1024·t … 1024·t + 1023` of the features and the
  output window the same rows of the result; every other window holds the whole of its array at every point, and those
  arrays are the weight table's two cuts, the recast parameter vectors and the two weight tables as given. So what
  point `t` writes back at row `q` of its block is the network on row `1024·t + q` of the features with the parameters
  as given, which is the block of `scores`. The 64 blocks tile the 65536 rows, so the result array is `scores`.
-/
import proofs.«110419_j65481071409833_2_alg».proof.Proof.KernelWindows
import proofs.«110419_j65481071409833_2_alg».proof.Proof.KernelBody
import Idealize.ShloMosaic.Lib.Pipeline.Value
import Idealize.ShloMosaic.Lib.ValueLayout

noncomputable section

namespace Cert.Mlp.Whole

open Cert.KernelIdeal Cert.KernelIdeal.Gen Idealize.ShloMosaic Idealize.ShloMosaic.TcCoe Idealize.SL.Sem
open Idealize.ShloMosaic.ValueIdx Cert.Mlp.Windows
open Idealize.ShloMosaic.Pipeline (Dat)

variable (m : (ℓ : Loc nD τ sig) → Buf (Elt Ideal) ℓ) (ρ : Dev nD → PrngReg)

/-- The result array, from the memory the program is launched on. -/
abbrev result (c : Dev nD) : S65536x1.Idx → EReal :=
  scores (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

theorem hz : (![0, 0] : Fin 2 → Nat) = fun _ => 0 := funext fun a => by fin_cases a <;> rfl

/-- The feature window moves with the output window along the rows and stays at column block 0. -/
theorem idx_rows : ∀ t : Fin cfg0.N, win0_0.index t (0 : Fin 2) = win0_16.index t (0 : Fin 2)
    ∧ win0_0.index t (1 : Fin 2) = 0 ∧ win0_16.index t (1 : Fin 2) = 0 :=
  (by decide +kernel : ∀ t : Fin grid0.N, _)

/-- Every block of 1024 rows is some point's. -/
theorem idx_onto : ∀ q0 : Fin 64, ∃ t : Fin cfg0.N, win0_16.index t = ![q0.val, 0] :=
  (by decide +kernel : ∀ q0 : Fin 64, ∃ t : Fin grid0.N, win0_16.index t = ![q0.val, 0])

/-- Row `q` of the feature block at point `t` is the features' row at the output block's row `q`: the two windows move
    together along the rows, and the feature window spans all 256 columns. -/
theorem feature_row (c : Dev nD) (t : Fin cfg0.N) (q : Fin 1024) (k : Fin 256) :
    iblk m c 0 t (ix2 q k)
      = m ((c : Thread nD τ).loc main_arg0) (ix2 (((cfg0.win 16).blk t).view.emb (ix2 q (0 : Fin 1)) 0) k) := by
  obtain ⟨e0, e1, e2⟩ := idx_rows t
  show V m c main_arg0 (((cfg0.win 0).blk t).view.emb (ix2 q k)) = _
  rw [V_main_arg0]
  refine congrArg _ (funext fun a => Fin.ext ?_)
  match a with
  | ⟨0, _⟩ => show win0_0.index t (0 : Fin 2) * 1024 + 1 * q.val = win0_16.index t (0 : Fin 2) * 1024 + 1 * q.val; omega
  | ⟨1, _⟩ => show win0_0.index t (1 : Fin 2) * 256 + 1 * k.val = k.val; omega

/-- The table's first cut reads the table: its row `k` is the table's row `k` … -/
theorem table_rows (c : Dev nD) (k : Fin 256) (j : Fin 1024) :
    V m c main_v0 (ix2 k j) = m ((c : Thread nD τ).loc main_arg1) (ix2 k.castSucc j) := by
  rw [V_v0]; exact slice2_axis0_apply 0 _ _ k j k.castSucc (by simp)

/-- … and the one row of its second cut is the table's row 256. -/
theorem table_last (c : Dev nD) (j : Fin 1024) :
    V m c main_v1 (ix2 (0 : Fin 1) j) = m ((c : Thread nD τ).loc main_arg1) (ix2 (Fin.last 256) j) := by
  rw [V_v1]; exact slice2_axis0_apply 256 _ _ (0 : Fin 1) j (Fin.last 256) (by simp)

/-- The network on the blocks at point `t`, row `q`, is `scores` at the output block's row `q`: every window but the
    features' holds its whole array, the cuts read the table and the recast vectors read the vectors. -/
theorem net_blocks (c : Dev nD) (t : Fin cfg0.N) (q : Fin 1024) :
    net (fun k => iblk m c 0 t (ix2 q k)) (fun k j => iblk m c 1 t (ix2 k j)) (fun j => iblk m c 2 t (ix2 (0 : Fin 1) j))
        (fun j => iblk m c 3 t (ix2 (0 : Fin 1) j)) (fun j => iblk m c 4 t (ix2 (0 : Fin 1) j))
        (fun j => iblk m c 5 t (ix2 (0 : Fin 1) j)) (fun j => iblk m c 6 t (ix2 (0 : Fin 1) j))
        (fun j => iblk m c 7 t (ix2 (0 : Fin 1) j)) (fun k j => iblk m c 8 t (ix2 k j))
        (fun j => iblk m c 9 t (ix2 (0 : Fin 1) j)) (fun j => iblk m c 10 t (ix2 (0 : Fin 1) j))
        (fun j => iblk m c 11 t (ix2 (0 : Fin 1) j)) (fun j => iblk m c 12 t (ix2 (0 : Fin 1) j))
        (fun j => iblk m c 13 t (ix2 (0 : Fin 1) j)) (fun k => iblk m c 14 t (ix2 k (0 : Fin 1)))
        (iblk m c 15 t (ix2 (0 : Fin 1) (0 : Fin 1)))
      = result m c (((cfg0.win 16).blk t).view.emb (ix2 q (0 : Fin 1))) := by
  show _ = net _ _ _ _ _ _ _ _ _ _ _ _ _ _ _ _
  exact net_congr (fun k => feature_row m c t q k)
    (fun k j => (congrFun (blk1 m c t) (ix2 k j)).trans (table_rows m c k j))
    (fun j => (congrFun (blk2 m c t) (ix2 (0 : Fin 1) j)).trans (table_last m c j))
    (fun j => (congrFun (blk3 m c t) (ix2 (0 : Fin 1) j)).trans (row_v2 m c j))
    (fun j => (congrFun (blk4 m c t) (ix2 (0 : Fin 1) j)).trans (row_v3 m c j))
    (fun j => (congrFun (blk5 m c t) (ix2 (0 : Fin 1) j)).trans (row_v4 m c j))
    (fun j => (congrFun (blk6 m c t) (ix2 (0 : Fin 1) j)).trans (row_v5 m c j))
    (fun j => (congrFun (blk7 m c t) (ix2 (0 : Fin 1) j)).trans (row_v6 m c j))
    (fun k j => (congrFun (blk8 m c t) (ix2 k j)).trans (congrFun (V_main_arg7 m c) (ix2 k j)))
    (fun j => (congrFun (blk9 m c t) (ix2 (0 : Fin 1) j)).trans (row_v7 m c j))
    (fun j => (congrFun (blk10 m c t) (ix2 (0 : Fin 1) j)).trans (row_v8 m c j))
    (fun j => (congrFun (blk11 m c t) (ix2 (0 : Fin 1) j)).trans (row_v9 m c j))
    (fun j => (congrFun (blk12 m c t) (ix2 (0 : Fin 1) j)).trans (row_v10 m c j))
    (fun j => (congrFun (blk13 m c t) (ix2 (0 : Fin 1) j)).trans (row_v11 m c j))
    (fun k => (congrFun (blk14 m c t) (ix2 k (0 : Fin 1))).trans (congrFun (V_main_arg13 m c) (ix2 k (0 : Fin 1))))
    ((congrFun (blk15 m c t) (ix2 (0 : Fin 1) (0 : Fin 1))).trans (row_v12 m c 0))

/-- WHAT POINT `t` WRITES BACK is block `t` of `scores`. -/
theorem flushed_scores (c : Dev nD) (t : Fin cfg0.N) :
    (dats m 0 c).flushed 16 t = ((cfg0.win 16).blk t).view.read (Elt Ideal) (result m c) := by
  rw [Cert.KernelIdeal.Value.flushed16]
  unfold out0_16
  rw [View.canon_unit_zero hz]
  simp only [View.ld_unit_zero (S := S1024x256) hz, View.ld_unit_zero (S := S256x1024) hz,
    View.ld_unit_zero (S := S1x1024) hz, View.ld_unit_zero (S := S1024x512) hz, View.ld_unit_zero (S := S1x512) hz,
    View.ld_unit_zero (S := S512x1) hz, View.ld_unit_zero (S := S1x1) hz]
  funext y
  obtain ⟨q, u, rfl⟩ : ∃ (q : Fin 1024) (u : Fin 1), y = ix2 q u := ⟨y 0, y 1, eq_ix2 y⟩
  obtain rfl : u = 0 := Subsingleton.elim _ _
  show k0_pay1 (F := Ideal) _ _ _ (ix2 q (0 : Fin 1)) = result m c (((cfg0.win 16).blk t).view.emb (ix2 q (0 : Fin 1)))
  -- the block's stored value at row `q` is the network on row `q` of the feature block
  exact (Body.block_row (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) (iblk m c 14 t) (iblk m c 15 t) q).trans (net_blocks m c t q)

/-- An index of the result array is in point `t`'s block iff each coordinate is in the block's range on its axis. -/
theorem mem_blk (t : Fin cfg0.N) (i : S65536x1.Idx) :
    i ∈ ((cfg0.win 16).blk t).view.set ↔ ∀ a : Fin 2, win0_16.index t a * S1024x1.size a ≤ (i a).val
      ∧ (i a).val < win0_16.index t a * S1024x1.size a + S1024x1.size a := by
  show i ∈ ((View.whole main_v13).slice (win0_16.rect t)).set ↔ _
  rw [View.set_slice_whole, Rect.mem_set_unit]
  exact Iff.rfl

/-- THE COVER: row `r` of the result is in the block of the point whose row block is `r / 1024`. -/
theorem cover (i : S65536x1.Idx) :
    ∃ t : Fin cfg0.N, (cfg0.win 16).flush t = true ∧ i ∈ ((cfg0.win 16).blk t).view.set := by
  have hi0 : (i 0).val < 65536 := (i 0).isLt
  have hi1 : (i 1).val < 1 := (i 1).isLt
  obtain ⟨t, ht⟩ := idx_onto ⟨(i 0).val / 1024, by omega⟩
  have q0 : win0_16.index t (0 : Fin 2) = (i 0).val / 1024 := congrFun ht 0
  have q1 : win0_16.index t (1 : Fin 2) = 0 := congrFun ht 1
  refine ⟨t, flush0_16 t, ?_⟩
  rw [mem_blk]
  intro a
  match a with
  | ⟨0, _⟩ =>
    show win0_16.index t (0 : Fin 2) * 1024 ≤ (i 0).val ∧ (i 0).val < win0_16.index t (0 : Fin 2) * 1024 + 1024
    omega
  | ⟨1, _⟩ =>
    show win0_16.index t (1 : Fin 2) * 1 ≤ (i 1).val ∧ (i 1).val < win0_16.index t (1 : Fin 2) * 1 + 1
    omega

/-- THE RESULT ARRAY after the run is `scores` of the arguments. -/
theorem final (c : Dev nD) : (dats m 0 c).arrAt 16 cfg0.N = result m c :=
  (dats m 0 c).arrAt_eq_of_cover 16 (result m c) (fun t _ => flushed_scores m c t) cover

end Cert.Mlp.Whole

end
-- ==== Proof.Reference.lean ====
/-
  The reference program's result, read at a row.

  The reference computes the gate column of the whole feature array, joins it to the features as column 256, and
  applies the three layers to the whole arrays. Read at row `p` its result is the network of `Net.lean` on row `p` of
  the features: the product of the joined array with the weight table is a sum over 257 positions, the first 256 of
  which read the features and the last the gate; every parameter vector is spread over the rows; and the closing
  `1 / (1 + exp (-z))` is the logistic function.
-/
import proofs.«110419_j65481071409833_2_alg».proof.Proof.Gen.ReferenceIdeal.Read
import proofs.«110419_j65481071409833_2_alg».proof.Proof.Net
import Idealize.ShloMosaic.Lib.Pipeline.Value
import Idealize.ShloMosaic.Lib.ValueIdx

noncomputable section

namespace Cert.Mlp.Ref

open Idealize.ShloMosaic Idealize.ShloMosaic.ValueIdx Cert.ReferenceIdeal Cert.ReferenceIdeal.Gen Cert.ReferenceIdeal.Read

/-- The gate column at row `p` is the gate of row `p` of the features. -/
theorem gate_at (x0 : (⟨S65536x256, .f32⟩ : BufTy).Contents (Elt Ideal)) (p : Fin 65536) :
    val_main_v7 (F := Ideal) x0 (ix2 p (0 : Fin 1)) = gate (fun k => x0 (ix2 p k)) := by
  have e : ∀ k : Fin 256, idx_main_v0 (idx_main_v1 (ix2 p (0 : Fin 1))) k = ix2 p k := fun k =>
    funext fun a => Fin.ext (by match a with | ⟨0, _⟩ => rfl | ⟨1, _⟩ => rfl)
  simp only [val_main_v7_apply, val_main_v6_apply, val_main_v5_apply, val_main_v3_apply, val_main_v1_apply,
    val_main_v0_apply, val_main_v2_apply, val_main_cst_0_apply, val_main_v4_apply, val_main_cst_1_apply,
    val_main_call0_v0_apply, val_main_cst_2_apply, val_main_call0_v1_apply, val_main_cst_3_apply, val_main_cst_apply, e]
  have z : FloatOps.ofBits (F := Ideal) .f32 0#32 + ∑ k : Fin 256, x0 (ix2 p k) = ∑ k : Fin 256, x0 (ix2 p k) := by
    show Ideal.ofBits .f32 0x00000000#32 + _ = _
    rw [Ideal.ofBits_zero_f32, zero_add]
  rw [z]
  rfl

/-- The joined array at a column below 256 reads the features … -/
theorem joined_feature (x0 : (⟨S65536x256, .f32⟩ : BufTy).Contents (Elt Ideal)) (p : Fin 65536) (k : Fin 256) :
    val_main_v8 (F := Ideal) x0 (ix2 p k.castSucc) = x0 (ix2 p k) := by
  unfold val_main_v8
  exact concatenate_pair_apply_left (t := S65536x257) (s₁ := S65536x256) (s₂ := S65536x1) 1 x0 (val_main_v7 (F := Ideal) x0) _
    (ix2 p k.castSucc) rfl (ix2 p k)
    (fun b => by match b with | ⟨0, _⟩ => rfl | ⟨1, _⟩ => rfl)

/-- … and at column 256 the gate column. -/
theorem joined_gate (x0 : (⟨S65536x256, .f32⟩ : BufTy).Contents (Elt Ideal)) (p : Fin 65536) :
    val_main_v8 (F := Ideal) x0 (ix2 p (Fin.last 256)) = val_main_v7 (F := Ideal) x0 (ix2 p (0 : Fin 1)) := by
  unfold val_main_v8
  exact concatenate_pair_apply_right (t := S65536x257) (s₁ := S65536x256) (s₂ := S65536x1) 1 x0 (val_main_v7 (F := Ideal) x0) _
    (ix2 p (Fin.last 256)) rfl rfl (ix2 p (0 : Fin 1))
    (fun b hb => by match b with | ⟨0, _⟩ => rfl | ⟨1, _⟩ => exact absurd rfl hb) rfl

/-- The joined array against the weight table at `(p, j)`: the features against the table's first 256 rows, plus
    the gate times its last row. -/
theorem dot1_at (x0 : (⟨S65536x256, .f32⟩ : BufTy).Contents (Elt Ideal)) (x1 : (⟨S257x1024, .f32⟩ : BufTy).Contents (Elt Ideal))
    (p : Fin 65536) (j : Fin 1024) :
    val_main_v9 (F := Ideal) x0 x1 (ix2 p j)
      = (∑ k : Fin 256, x0 (ix2 p k) * x1 (ix2 k.castSucc j)) + gate (fun k => x0 (ix2 p k)) * x1 (ix2 (Fin.last 256) j) := by
  have el : ∀ k : Fin 257, lidx_main_v9 (ix2 p j) k = ix2 p k := fun k =>
    funext fun a => Fin.ext (by match a with | ⟨0, _⟩ => rfl | ⟨1, _⟩ => rfl)
  have er : ∀ k : Fin 257, ridx_main_v9 (ix2 p j) k = ix2 k j := fun k =>
    funext fun a => Fin.ext (by match a with | ⟨0, _⟩ => rfl | ⟨1, _⟩ => rfl)
  rw [val_main_v9_apply, sum_joined]
  simp only [el, er, joined_feature, joined_gate, gate_at]

section Spread
variable (p : Fin 65536)

/-- A parameter vector spread over the rows reads, at `(p, j)`, its entry `j`. -/
theorem v11_at (x : (⟨S1024, .f32⟩ : BufTy).Contents (Elt Ideal)) (j : Fin 1024) : val_main_v11 (F := Ideal) x (ix2 p j) = x (ix1 j) := by
  rw [val_main_v11_apply, val_main_v10_apply]; exact congrArg x (funext fun a => Fin.ext (by match a with | ⟨0, _⟩ => rfl))
theorem v14_at (x : (⟨S1024, .f32⟩ : BufTy).Contents (Elt Ideal)) (j : Fin 1024) : val_main_v14 (F := Ideal) x (ix2 p j) = x (ix1 j) := by
  rw [val_main_v14_apply, val_main_v13_apply]; exact congrArg x (funext fun a => Fin.ext (by match a with | ⟨0, _⟩ => rfl))
theorem v17_at (x : (⟨S1024, .f32⟩ : BufTy).Contents (Elt Ideal)) (j : Fin 1024) : val_main_v17 (F := Ideal) x (ix2 p j) = x (ix1 j) := by
  rw [val_main_v17_apply, val_main_v16_apply]; exact congrArg x (funext fun a => Fin.ext (by match a with | ⟨0, _⟩ => rfl))
theorem v26_at (x : (⟨S1024, .f32⟩ : BufTy).Contents (Elt Ideal)) (j : Fin 1024) : val_main_v26 (F := Ideal) x (ix2 p j) = x (ix1 j) := by
  rw [val_main_v26_apply, val_main_v25_apply]; exact congrArg x (funext fun a => Fin.ext (by match a with | ⟨0, _⟩ => rfl))
/-- The reciprocal square root of a variance vector plus the small constant, spread over the rows. -/
theorem v23_at (x : (⟨S1024, .f32⟩ : BufTy).Contents (Elt Ideal)) (j : Fin 1024) :
    val_main_v23 (F := Ideal) x (ix2 p j) = Ideal.rsqrt (x (ix1 j) + wEps) := by
  rw [val_main_v23_apply, val_main_v22_apply, val_main_v21_apply, val_main_v20_apply, val_main_v19_apply, val_main_cst_4_apply]
  exact congrArg (fun t => Ideal.rsqrt (x t + wEps)) (funext fun a => Fin.ext (by match a with | ⟨0, _⟩ => rfl))

theorem v31_at (x : (⟨S512, .f32⟩ : BufTy).Contents (Elt Ideal)) (j : Fin 512) : val_main_v31 (F := Ideal) x (ix2 p j) = x (ix1 j) := by
  rw [val_main_v31_apply, val_main_v30_apply]; exact congrArg x (funext fun a => Fin.ext (by match a with | ⟨0, _⟩ => rfl))
theorem v34_at (x : (⟨S512, .f32⟩ : BufTy).Contents (Elt Ideal)) (j : Fin 512) : val_main_v34 (F := Ideal) x (ix2 p j) = x (ix1 j) := by
  rw [val_main_v34_apply, val_main_v33_apply]; exact congrArg x (funext fun a => Fin.ext (by match a with | ⟨0, _⟩ => rfl))
theorem v37_at (x : (⟨S512, .f32⟩ : BufTy).Contents (Elt Ideal)) (j : Fin 512) : val_main_v37 (F := Ideal) x (ix2 p j) = x (ix1 j) := by
  rw [val_main_v37_apply, val_main_v36_apply]; exact congrArg x (funext fun a => Fin.ext (by match a with | ⟨0, _⟩ => rfl))
theorem v46_at (x : (⟨S512, .f32⟩ : BufTy).Contents (Elt Ideal)) (j : Fin 512) : val_main_v46 (F := Ideal) x (ix2 p j) = x (ix1 j) := by
  rw [val_main_v46_apply, val_main_v45_apply]; exact congrArg x (funext fun a => Fin.ext (by match a with | ⟨0, _⟩ => rfl))
theorem v43_at (x : (⟨S512, .f32⟩ : BufTy).Contents (Elt Ideal)) (j : Fin 512) :
    val_main_v43 (F := Ideal) x (ix2 p j) = Ideal.rsqrt (x (ix1 j) + wEps) := by
  rw [val_main_v43_apply, val_main_v42_apply, val_main_v41_apply, val_main_v40_apply, val_main_v39_apply, val_main_cst_5_apply]
  exact congrArg (fun t => Ideal.rsqrt (x t + wEps)) (funext fun a => Fin.ext (by match a with | ⟨0, _⟩ => rfl))
/-- The last bias, a vector of one entry, spread over the rows of a column. -/
theorem v51_at (x : (⟨S1, .f32⟩ : BufTy).Contents (Elt Ideal)) : val_main_v51 (F := Ideal) x (ix2 p (0 : Fin 1)) = x (ix1 (0 : Fin 1)) := by
  rw [val_main_v51_apply, val_main_v50_apply]; exact congrArg x (funext fun a => Fin.ext (by match a with | ⟨0, _⟩ => rfl))

end Spread

section Layers
variable (x0 : (⟨S65536x256, .f32⟩ : BufTy).Contents (Elt Ideal)) (x1 : (⟨S257x1024, .f32⟩ : BufTy).Contents (Elt Ideal))
  (x2 x3 x4 x5 x6 : (⟨S1024, .f32⟩ : BufTy).Contents (Elt Ideal)) (x7 : (⟨S1024x512, .f32⟩ : BufTy).Contents (Elt Ideal))
  (x8 x9 x10 x11 x12 : (⟨S512, .f32⟩ : BufTy).Contents (Elt Ideal)) (x13 : (⟨S512x1, .f32⟩ : BufTy).Contents (Elt Ideal))
  (x14 : (⟨S1, .f32⟩ : BufTy).Contents (Elt Ideal)) (p : Fin 65536)

/-- The first hidden layer at `(p, j)`. -/
theorem hidden1_at (j : Fin 1024) :
    val_main_v28 (F := Ideal) x0 x1 x2 x3 x4 x5 x6 (ix2 p j)
      = hidden1 (fun k => x0 (ix2 p k)) (fun k j => x1 (ix2 k.castSucc j)) (fun j => x1 (ix2 (Fin.last 256) j))
          (fun j => x2 (ix1 j)) (fun j => x3 (ix1 j)) (fun j => x4 (ix1 j)) (fun j => x5 (ix1 j)) (fun j => x6 (ix1 j)) j := by
  simp only [val_main_v28_apply, val_main_v27_apply, val_main_v24_apply, val_main_v18_apply, val_main_v15_apply,
    val_main_v12_apply, val_main_call1_v0_apply, val_main_call1_cst_apply, dot1_at, v11_at, v14_at, v17_at, v23_at, v26_at]
  rfl

/-- The first layer's outputs against the second weight table at `(p, j)`. -/
theorem dot2_at (j : Fin 512) :
    val_main_v29 (F := Ideal) x0 x1 x2 x3 x4 x5 x6 x7 (ix2 p j)
      = ∑ k : Fin 1024, val_main_v28 (F := Ideal) x0 x1 x2 x3 x4 x5 x6 (ix2 p k) * x7 (ix2 k j) := by
  have el : ∀ k : Fin 1024, lidx_main_v29 (ix2 p j) k = ix2 p k := fun k =>
    funext fun a => Fin.ext (by match a with | ⟨0, _⟩ => rfl | ⟨1, _⟩ => rfl)
  have er : ∀ k : Fin 1024, ridx_main_v29 (ix2 p j) k = ix2 k j := fun k =>
    funext fun a => Fin.ext (by match a with | ⟨0, _⟩ => rfl | ⟨1, _⟩ => rfl)
  rw [val_main_v29_apply]
  simp only [el, er]

/-- The second hidden layer at `(p, j)`. -/
theorem hidden2_at (j : Fin 512) :
    val_main_v48 (F := Ideal) x0 x1 x2 x3 x4 x5 x6 x7 x8 x9 x10 x11 x12 (ix2 p j)
      = hidden2 (fun k => val_main_v28 (F := Ideal) x0 x1 x2 x3 x4 x5 x6 (ix2 p k)) (fun k j => x7 (ix2 k j))
          (fun j => x8 (ix1 j)) (fun j => x9 (ix1 j)) (fun j => x10 (ix1 j)) (fun j => x11 (ix1 j)) (fun j => x12 (ix1 j)) j := by
  simp only [val_main_v48_apply, val_main_v47_apply, val_main_v44_apply, val_main_v38_apply, val_main_v35_apply,
    val_main_v32_apply, val_main_call2_v0_apply, val_main_call2_cst_apply, dot2_at, v31_at, v34_at, v37_at, v43_at, v46_at]
  rfl

/-- The second layer's outputs against the last weight column at row `p`. -/
theorem dot3_at :
    val_main_v49 (F := Ideal) x0 x1 x2 x3 x4 x5 x6 x7 x8 x9 x10 x11 x12 x13 (ix2 p (0 : Fin 1))
      = ∑ k : Fin 512, val_main_v48 (F := Ideal) x0 x1 x2 x3 x4 x5 x6 x7 x8 x9 x10 x11 x12 (ix2 p k) * x13 (ix2 k (0 : Fin 1)) := by
  have el : ∀ k : Fin 512, lidx_main_v49 (ix2 p (0 : Fin 1)) k = ix2 p k := fun k =>
    funext fun a => Fin.ext (by match a with | ⟨0, _⟩ => rfl | ⟨1, _⟩ => rfl)
  have er : ∀ k : Fin 512, ridx_main_v49 (ix2 p (0 : Fin 1)) k = ix2 k (0 : Fin 1) := fun k =>
    funext fun a => Fin.ext (by match a with | ⟨0, _⟩ => rfl | ⟨1, _⟩ => rfl)
  rw [val_main_v49_apply]
  simp only [el, er]

/-- The result at row `p` is the network on row `p`. -/
theorem result_at :
    val_main_v58 (F := Ideal) x0 x1 x2 x3 x4 x5 x6 x7 x8 x9 x10 x11 x12 x13 x14 (ix2 p (0 : Fin 1))
      = scores x0 x1 x2 x3 x4 x5 x6 x7 x8 x9 x10 x11 x12 x13 x14 (ix2 p (0 : Fin 1)) := by
  simp only [val_main_v58_apply, val_main_v57_apply, val_main_cst_7_apply, val_main_v56_apply, val_main_v55_apply,
    val_main_cst_6_apply, val_main_v54_apply, val_main_v53_apply, val_main_v52_apply, dot3_at, v51_at, hidden2_at, hidden1_at]
  exact spelt_logistic _

/-- THE REFERENCE'S RESULT ARRAY is `scores` of its arguments. -/
theorem result_eq : val_main_v58 (F := Ideal) x0 x1 x2 x3 x4 x5 x6 x7 x8 x9 x10 x11 x12 x13 x14
    = scores x0 x1 x2 x3 x4 x5 x6 x7 x8 x9 x10 x11 x12 x13 x14 := by
  funext i
  obtain ⟨p, q, rfl⟩ : ∃ (p : Fin 65536) (q : Fin 1), i = ix2 p q := ⟨i 0, i 1, eq_ix2 i⟩
  obtain rfl : q = 0 := Subsingleton.elim _ _
  exact result_at x0 x1 x2 x3 x4 x5 x6 x7 x8 x9 x10 x11 x12 x13 x14 p

end Layers

end Cert.Mlp.Ref

end
-- ==== Proof.lean ====
/-
  A batch of 65536 samples is scored by a three-layer network; the kernel and its reference give the same scores.

  Each sample is a row of 256 features. Its gate is 1 when the row's mean is positive, else 0. The first layer takes
  the features and the gate against a 257-row weight table, adds a bias, normalises with a running mean and variance
  (gain · (h − mean) · rsqrt (variance + ε) + shift) and cuts off below at zero; the second layer does the same with a
  second table; the score is the logistic function of the second layer against one weight column plus a bias.

  The reference joins the gate to the features as column 256 and multiplies the joined array by the whole table. The
  kernel walks the rows in 64 blocks of 1024; on a block it multiplies the features by the table's first 256 rows and
  adds the gate times row 256. On the extended reals these agree: a sum over 257 terms is the sum of the first 256
  plus the last, by commutativity and associativity of addition alone, so the inputs' finiteness is never used. The
  kernel's matrix products take operands in a narrower float format, which on the extended reals changes nothing. The
  reference spells the logistic function as `1 / (1 + exp (-z))`, which is its definition.

  `Net.lean` states the network on one row and the result array `scores`; `KernelBody.lean` reads the kernel body's
  stored block at a row; `KernelWindows.lean` and `KernelArray.lean` go from the 64 blocks to the whole array;
  `Reference.lean` reads the reference's result at a row. Both runs end at `scores` of arguments that agree.
-/
import proofs.«110419_j65481071409833_2_alg».proof.Defs
import proofs.«110419_j65481071409833_2_alg».proof.Proof.Gen.Kernel
import proofs.«110419_j65481071409833_2_alg».proof.Proof.Gen.Kernel.Skeleton
import proofs.«110419_j65481071409833_2_alg».proof.Proof.Gen.Kernel.Launch
import proofs.«110419_j65481071409833_2_alg».proof.Proof.Gen.Kernel.Points
import proofs.«110419_j65481071409833_2_alg».proof.Proof.Gen.Kernel.Frame
import proofs.«110419_j65481071409833_2_alg».proof.Proof.Gen.KernelIdeal
import proofs.«110419_j65481071409833_2_alg».proof.Proof.Gen.KernelIdeal.Skeleton
import proofs.«110419_j65481071409833_2_alg».proof.Proof.Gen.KernelIdeal.Launch
import proofs.«110419_j65481071409833_2_alg».proof.Proof.Gen.KernelIdeal.Points
import proofs.«110419_j65481071409833_2_alg».proof.Proof.Gen.KernelIdeal.Frame
import proofs.«110419_j65481071409833_2_alg».proof.Proof.Gen.ReferenceIdeal
import proofs.«110419_j65481071409833_2_alg».proof.Proof.Gen.Pre_finite_inputs
import proofs.«110419_j65481071409833_2_alg».proof.Proof.Gen.KernelIdeal.Value
import proofs.«110419_j65481071409833_2_alg».proof.Proof.Gen.ReferenceIdeal.Run
import proofs.«110419_j65481071409833_2_alg».proof.Proof.Gen.ReferenceIdeal.Read
import proofs.«110419_j65481071409833_2_alg».proof.Proof.KernelArray
import proofs.«110419_j65481071409833_2_alg».proof.Proof.Reference
import Idealize.ShloMosaic.Adequacy
import Idealize.ShloMosaic.Init

noncomputable section

namespace Cert.Proof

open Idealize.ShloMosaic Idealize.SL.Sem

/-- The kernel as printed runs, and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run, with its result dropped, is its frame. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten to read it on the extended reals. -/
theorem preserves : Cert.preserves_Kernel_KernelIdeal := trivial

/-- Both runs end with the result array at `scores` of the arguments: the kernel's by its 64 blocks, the reference's
    row by row; and the arguments agree. -/
theorem algebraic : Cert.algebraic_KernelIdeal_ReferenceIdeal := by
  intro m ρ m' ρ' _ hagree
  refine ⟨fun c => Cert.Mlp.Whole.result m c, ?_, ?_⟩
  · exact (θ_run Cert.KernelIdeal.defs _ _).mono
      (fun r h c => ⟨(h c).1.trans (Cert.Mlp.Whole.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v58_eq, Cert.Mlp.Ref.result_eq, e0, e1, e2, e3, e4, e5, e6, e7, e8, e9, e10,
      e11, e12, e13, e14]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
